-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x8192 : Shape := ⟨2, ![8192, 8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192 .f32) (main_arg1 : FVec F S8192x8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192 : Shape := ⟨1, ![8192]⟩
abbrev S8192x8192 : Shape := ⟨2, ![8192, 8192]⟩
abbrev S8192x1 : Shape := ⟨2, ![8192, 1]⟩
abbrev S1024x1 : Shape := ⟨2, ![1024, 1]⟩
abbrev S1024x2048 : Shape := ⟨2, ![1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192, .f32⟩
  | .hbm, ⟨1, _⟩ => ⟨S8192x8192, .f32⟩
  | .hbm, ⟨2, _⟩ => ⟨S8192x1, .f32⟩
  | .hbm, ⟨3, _⟩ => ⟨S8192x8192, .f32⟩
  | .local _ .vmem, ⟨0, _⟩ => ⟨S1024x1, .f32⟩
  | .local _ .vmem, ⟨1, _⟩ => ⟨S1024x1, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8192_S8192x1 : S8192.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  broadcasts_S1024x1_S1024x2048 : S1024x1.Broadcasts S1024x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .f32 = 32 ∨ (Rect.block (s := S8192x8192) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)

variable [Facts₀]

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192 : Shape := ⟨1, ![8192]⟩
abbrev S8192x8192 : Shape := ⟨2, ![8192, 8192]⟩
abbrev S8192x1 : Shape := ⟨2, ![8192, 1]⟩

abbrev nBuf : Space → Nat
  | .hbm => 5
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192x8192, .f32⟩
  | .hbm, ⟨2, _⟩ => ⟨S8192x1, .f32⟩
  | .hbm, ⟨3, _⟩ => ⟨S8192x8192, .f32⟩
  | .hbm, ⟨4, _⟩ => ⟨S8192x8192, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.RowScale.lean ====
/-
  The mathematics of this certificate, stated once and over no program.

  Both programs compute the product `diag(A) · B` of the diagonal matrix of a vector `A` of 8192 numbers with an
  8192 × 8192 matrix `B`: row `r` of `B` is scaled by `A r`, so entry `(r, c)` of the result is `A r * B (r, c)`.
  The kernel makes `A` a column (8192 × 1), cuts the column into eight pieces of 1024 rows and the matrix into 8 × 4
  tiles of 1024 × 2048, and on each tile multiplies the column piece, repeated along the 2048 columns, into the
  tile; the reference repeats the column along all 8192 columns and multiplies once. In both the entry `(r, c)` is
  the ONE product `A r * B (r, c)`, the factors in the same order: no law of arithmetic is used, only where each
  factor is read, so the statement holds for any float values (and in particular on the extended reals,
  infinite entries included).
-/
import Idealize.ShloMosaic.PureOps
import Idealize.ShloMosaic.Lib.ValueIdx

noncomputable section

namespace Cert.RowScale

open Idealize.ShloMosaic Idealize.ShloMosaic.ValueIdx

variable {F : FTy → Type} [FloatOps F]

/-- The shape of the vector of row scales. -/
abbrev Scales : Shape := ⟨1, ![8192]⟩
/-- The shape of the matrix and of the result. -/
abbrev Mat : Shape := ⟨2, ![8192, 8192]⟩

/-- The row of a matrix entry, as an index of the vector of scales. -/
def rowOf (i : Mat.Idx) : Scales.Idx := ix1 (⟨(i 0).val, (i 0).isLt⟩ : Fin 8192)

/-- The row of `(r, c)` is `r`. -/
theorem rowOf_val (i : Mat.Idx) : (rowOf i 0).val = (i 0).val := rfl

/-- `diag(A) · B`: entry `(r, c)` is `A r * B (r, c)`. -/
def scaleRows (A : Scales.Idx → Elt F .f32) (B : Mat.Idx → Elt F .f32) : Mat.Idx → Elt F .f32 :=
  fun i => FloatOps.mulf (A (rowOf i)) (B i)

/-- An entry of `diag(A) · B` from ANY reading of its two factors that lands on row `r` of `A` and on `(r, c)` of `B`:
    the scale read at an index `k` of the vector whose coordinate is the entry's row, the matrix read at an index `j`
    equal to the entry's. Every reading below — the reference's two repetitions, the kernel's column piece repeated
    along a tile — is brought to this form. -/
theorem scaleRows_of_reads (A : Scales.Idx → Elt F .f32) (B : Mat.Idx → Elt F .f32) (i j : Mat.Idx) (k : Scales.Idx)
    (hk : (k 0).val = (i 0).val) (hj : j = i) :
    FloatOps.mulf (A k) (B j) = scaleRows A B i := by
  subst hj
  have e : k = rowOf j := funext fun a => match a with | ⟨0, _⟩ => Fin.ext hk
  rw [e]
  rfl

end Cert.RowScale

end
-- ==== Proof.KernelRows.lean ====
/-
  The kernel, read tile by tile, then as one array.

  Before the region the host reshapes the vector `A` (8192 numbers) into a column (8192 × 1): entry `(r, 0)` of the
  column is `A r`. The region runs over an 8 × 4 grid; at the point `(p, q)` it is given rows `1024 p … 1024 p + 1023`
  of the column, the 1024 × 2048 tile of `B` with those rows and the columns `2048 q … 2048 q + 2047`, and writes the
  tile of the result in the same place. Inside a tile, entry `(x, y)` of what is written is the column piece at `(x, 0)`
  times the matrix tile at `(x, y)`, that is `A (1024 p + x) * B (1024 p + x, 2048 q + y)`: the tile of
  `diag(A) · B` at that place (`tile_eq`). The 32 tiles tile the whole 8192 × 8192 result — the point that owns
  `(r, c)` is `(r / 1024, c / 2048)` (`covered`) —, so after the run the result array is `diag(A) · B`
  (`result_eq`, `run`).
-/
import proofs.«137596_j70428873719964_2_alg».proof.Proof.Gen.KernelIdeal.Value
import proofs.«137596_j70428873719964_2_alg».proof.Proof.RowScale
import Idealize.ShloMosaic.Lib.Pipeline.Value
import Idealize.ShloMosaic.Lib.StableHlo.Run

noncomputable section

namespace Cert.KernelIdeal.RowScaleValue

open Cert.KernelIdeal Cert.KernelIdeal.Gen Cert.RowScale
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The column the region finds -/

/-- The one host operation before the region reshapes `A` into a column: the region finds, in the array its first
    window is cut from, the elements of `A` in the same row-major order at the shape 8192 × 1. -/
theorem column_eq (c : Dev nD) :
    (V m c main_v0 : S8192x1.Idx → Elt F .f32)
      = shapeCast S8192x1 (m ((c : Thread nD τ).loc main_arg0)) shapeCasts_S8192_S8192x1 := by
  dsimp only [V, hostOps0]; after_results; rfl

/-- Entry `(r, 0)` of the column is `A r`: the row-major position of `(r, 0)` in 8192 × 1 is `r · 1 + 0`. -/
theorem column_apply (c : Dev nD) (j : S8192x1.Idx) (k : Scales.Idx) (hk : (k 0).val = (j 0).val) :
    V m c main_v0 j = m ((c : Thread nD τ).loc main_arg0) k := by
  refine (congrFun (column_eq m c) j).trans ?_
  refine shapeCast_apply _ _ j k ?_
  have h1 : (j 1).val < 1 := (j 1).isLt
  rw [Shape.rowMajor_val_one, Shape.rowMajor_val_two]
  show (k 0).val = (j 0).val * 1 + (j 1).val
  omega

/-! ## One tile -/

theorem zero_offsets : (![0, 0] : Fin 2 → Nat) = fun _ => 0 := funext fun a => by fin_cases a <;> rfl

/-- How the three windows move over the grid, decided over its 32 points: the column piece and the matrix tile are
    on the rows of the result's tile, the column piece always at its one column, the matrix tile on the result
    tile's columns. -/
theorem index_facts : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = win0_2.index t (1 : Fin 2) :=
  (by decide +kernel : ∀ t : Fin grid0.N, _)

/-- Every place `(p, q)` of the 8 × 4 arrangement of tiles is some grid point's. -/
theorem index_onto : ∀ (p : Fin 8) (q : Fin 4), ∃ t : Fin cfg0.N, win0_2.index t = ![p.val, q.val] :=
  (by decide +kernel : ∀ (p : Fin 8) (q : Fin 4), ∃ t : Fin grid0.N, win0_2.index t = ![p.val, q.val])

/-- WHAT POINT `t` WRITES BACK is the tile of `diag(A) · B` at the point's place: entry `(x, y)` of the tile is the
    column piece at `(x, 0)` — `A` at the tile's row `x` — times the matrix tile at `(x, y)`. -/
theorem tile_eq (c : Dev nD) (t : Fin cfg0.N) :
    (dats m 0 c).flushed 2 t = ((cfg0.win 2).blk t).view.read (Elt F)
      (scaleRows (m ((c : Thread nD τ).loc main_arg0)) (m ((c : Thread nD τ).loc main_arg1))) := by
  rw [Value.flushed2]
  unfold out0_2
  simp only [View.ld_unit_zero (S := S1024x1) zero_offsets, View.ld_unit_zero (S := S1024x2048) zero_offsets]
  obtain ⟨e0, e1, e2, e3⟩ := index_facts t
  funext j
  refine (Value.canon2_eq (F := F) (iblk m c 0 t) (iblk m c 1 t) j).trans ?_
  show FloatOps.mulf (V m c main_v0 (((cfg0.win 0).blk t).view.emb (Value.ix2_0 j)))
      (V m c main_arg1 (((cfg0.win 1).blk t).view.emb (Value.ix2_1 j)))
    = scaleRows (m ((c : Thread nD τ).loc main_arg0)) (m ((c : Thread nD τ).loc main_arg1)) (((cfg0.win 2).blk t).view.emb j)
  -- the row of the column piece's entry is the row of the result's entry
  have h0 : (rowOf (((cfg0.win 2).blk t).view.emb j) 0).val = ((((cfg0.win 0).blk t).view.emb (Value.ix2_0 j)) 0).val := by
    show win0_2.index t (0 : Fin 2) * 1024 + 1 * (j 0).val = win0_0.index t (0 : Fin 2) * 1024 + 1 * (j 0).val
    omega
  -- the matrix tile's entry is the result's entry
  have h1 : ((cfg0.win 1).blk t).view.emb (Value.ix2_1 j) = ((cfg0.win 2).blk t).view.emb j := by
    funext a; apply Fin.ext
    match a with
    | ⟨0, _⟩ => show win0_1.index t (0 : Fin 2) * 1024 + 1 * (j 0).val = win0_2.index t (0 : Fin 2) * 1024 + 1 * (j 0).val; omega
    | ⟨1, _⟩ => show win0_1.index t (1 : Fin 2) * 2048 + 1 * (j 1).val = win0_2.index t (1 : Fin 2) * 2048 + 1 * (j 1).val; omega
  rw [column_apply m c (((cfg0.win 0).blk t).view.emb (Value.ix2_0 j)) (rowOf (((cfg0.win 2).blk t).view.emb j)) h0,
    V_main_arg1]
  exact scaleRows_of_reads _ _ (((cfg0.win 2).blk t).view.emb j) (((cfg0.win 1).blk t).view.emb (Value.ix2_1 j))
    (rowOf (((cfg0.win 2).blk t).view.emb j)) rfl h1

/-! ## The tiles fill the result -/

/-- An entry of the result is in point `t`'s tile iff, on each axis, its coordinate is in the tile's range. -/
theorem mem_tile (t : Fin cfg0.N) (i : S8192x8192.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v1).slice (win0_2.rect t)).set ↔ _
  rw [View.set_slice_whole, Rect.mem_set_unit]
  exact Iff.rfl

/-- Every entry `(r, c)` of the result is in the tile of a point that writes back: the one at place
    `(r / 1024, c / 2048)`. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := index_onto ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- THE RESULT ARRAY after the run is `diag(A) · B` of the arguments as launched: every tile written back is the tile
    of that array, and the tiles fill it. -/
theorem result_eq (c : Dev nD) :
    (dats m 0 c).arrAt 2 cfg0.N
      = scaleRows (m ((c : Thread nD τ).loc main_arg0)) (m ((c : Thread nD τ).loc main_arg1)) :=
  (dats m 0 c).arrAt_eq_of_cover 2 _ (fun t _ => tile_eq m c t) covered

/-! ## The run -/

/-- Every weakly fair execution of the kernel's program terminates with the result array at `diag(A) · B` of the
    arguments as launched, and the arguments unchanged. -/
theorem run : θ_run defs (onTc (τ := τ) (main (F := F))) ⟨m, fun _ => 0, ρ⟩ fun r => ∀ c : Dev nD,
      r.2.mem ((c : Thread nD τ).loc main_v1)
        = scaleRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (Value.run_blocks m ρ)

end Cert.KernelIdeal.RowScaleValue

end
-- ==== Proof.ReferenceRows.lean ====
/-
  The reference, read entry by entry. It repeats the vector `A` into a column (`A[:, None]`: entry `(r, 0)` is `A r`),
  repeats the column along the 8192 columns (entry `(r, c)` is the column's `(r, 0)`), and multiplies by `B` entry by
  entry. Reading the two repetitions at an entry `(r, c)` gives `A r`, so the product there is `A r * B (r, c)`:
  the reference's result is `diag(A) · B`.
-/
import proofs.«137596_j70428873719964_2_alg».proof.Proof.Gen.ReferenceIdeal.Read
import proofs.«137596_j70428873719964_2_alg».proof.Proof.RowScale

noncomputable section

namespace Cert.ReferenceIdeal.RowScaleValue

open Cert.ReferenceIdeal Cert.ReferenceIdeal.Read Cert.RowScale Idealize.ShloMosaic

variable {F : FTy → Type} [FloatOps F]

/-- The reference's last stage — the product of the twice repeated vector with the matrix — is `diag(A) · B`: at an
    entry `(r, c)` the second repetition reads the column at `(r, 0)`, the first reads the vector at `r`. -/
theorem result_eq (A : Scales.Idx → Elt F .f32) (B : Mat.Idx → Elt F .f32) :
    val_main_v2 (F := F) A B = scaleRows A B := by
  funext i
  rw [val_main_v2_apply, val_main_v1_apply, val_main_v0_apply]
  exact scaleRows_of_reads A B i i (idx_main_v0 (idx_main_v1 i)) rfl rfl

end Cert.ReferenceIdeal.RowScaleValue

end
-- ==== Proof.lean ====
/-
  The proof of `Cert.Claim`: the kernel computes `diag(A) · B`, as its reference does.

  `A` is a vector of 8192 numbers and `B` an 8192 × 8192 matrix; both programs scale row `r` of `B` by `A r`, so entry
  `(r, c)` of either result is the one product `A r * B (r, c)` (Proof/RowScale.lean). The kernel reaches it tile by
  tile — a column piece of `A` repeated along a 1024 × 2048 tile of `B`, the 32 tiles filling the result
  (Proof/KernelRows.lean) —, the reference by repeating `A` along all the columns at once (Proof/ReferenceRows.lean).
  The two products have the same factors in the same order, so the results are equal entry by entry on the extended
  reals with no law of arithmetic and without the hypothesis that the inputs are finite.

  The three programs' runs terminate without a fault and leave their arguments as launched: for the kernel's two
  programs this is their frame; for the reference it is its run with the result forgotten. The kernel's idealized program
  is its own text read on the extended reals — nothing was rewritten —, so there is nothing to preserve.
-/
import proofs.«137596_j70428873719964_2_alg».proof.Defs
import proofs.«137596_j70428873719964_2_alg».proof.Proof.Gen.Kernel
import proofs.«137596_j70428873719964_2_alg».proof.Proof.Gen.Kernel.Skeleton
import proofs.«137596_j70428873719964_2_alg».proof.Proof.Gen.Kernel.Launch
import proofs.«137596_j70428873719964_2_alg».proof.Proof.Gen.Kernel.Points
import proofs.«137596_j70428873719964_2_alg».proof.Proof.Gen.Kernel.Frame
import proofs.«137596_j70428873719964_2_alg».proof.Proof.Gen.KernelIdeal
import proofs.«137596_j70428873719964_2_alg».proof.Proof.Gen.KernelIdeal.Skeleton
import proofs.«137596_j70428873719964_2_alg».proof.Proof.Gen.KernelIdeal.Launch
import proofs.«137596_j70428873719964_2_alg».proof.Proof.Gen.KernelIdeal.Points
import proofs.«137596_j70428873719964_2_alg».proof.Proof.Gen.KernelIdeal.Frame
import proofs.«137596_j70428873719964_2_alg».proof.Proof.Gen.KernelIdeal.Value
import proofs.«137596_j70428873719964_2_alg».proof.Proof.Gen.ReferenceIdeal
import proofs.«137596_j70428873719964_2_alg».proof.Proof.Gen.ReferenceIdeal.Run
import proofs.«137596_j70428873719964_2_alg».proof.Proof.Gen.ReferenceIdeal.Read
import proofs.«137596_j70428873719964_2_alg».proof.Proof.Gen.Pre_finite_inputs
import proofs.«137596_j70428873719964_2_alg».proof.Proof.RowScale
import proofs.«137596_j70428873719964_2_alg».proof.Proof.KernelRows
import proofs.«137596_j70428873719964_2_alg».proof.Proof.ReferenceRows
import Idealize.ShloMosaic.Adequacy
import Idealize.ShloMosaic.Init

noncomputable section

namespace Cert.Proof

open Idealize.ShloMosaic Idealize.SL.Sem

/-- The kernel as printed runs and leaves `A` and `B` as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves `A` and `B` as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals, from memories that agree on `A` and `B`, both programs end with `diag(A) · B`: the kernel's
    tiles fill it (`KernelIdeal.RowScaleValue.run`), the reference's repeated vector times `B` is it
    (`ReferenceIdeal.RowScaleValue.result_eq`). -/
theorem algebraic : Cert.algebraic_KernelIdeal_ReferenceIdeal := by
  intro m ρ m' ρ' _ hagree
  refine ⟨fun c => Cert.RowScale.scaleRows
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RowScaleValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RowScaleValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
